-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S1024x512 .f32) (main_arg3 : FVec F S1024x512 .f32) (main_arg4 : FVec F S1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S16384x512 : Shape := ⟨2, ![16384, 512]⟩
abbrev S1024x512 : Shape := ⟨2, ![1024, 512]⟩
abbrev S512x512 : Shape := ⟨2, ![512, 512]⟩
abbrev S512x1536 : Shape := ⟨2, ![512, 1536]⟩
abbrev S512x1024 : Shape := ⟨2, ![512, 1024]⟩

abbrev nBuf : Space → Nat
  | .hbm => 17
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x1536, .f32⟩
  | .hbm, ⟨12, _⟩ => ⟨S512x1536, .bf16⟩
  | .hbm, ⟨13, _⟩ => ⟨S512x1024, .f32⟩
  | .hbm, ⟨14, _⟩ => ⟨S512x1024, .bf16⟩
  | .hbm, ⟨15, _⟩ => ⟨S512x512, .bf16⟩
  | .hbm, ⟨16, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1024, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x512_S512x512_0_0 : S1024x512.Slices ![0, 0] S512x512
  slices_S1024x512_S512x512_512_0 : S1024x512.Slices ![512, 0] S512x512
  concatenates_S512x512_S512x512_S512x512_S512x1536_d1 : Shape.Concatenates [S512x512, S512x512, S512x512] S512x1536 1
  bitsLt_bf16_f32 : FTy.bits .bf16 < FTy.bits .f32
  concatenates_S512x512_S512x512_S512x1024_d1 : Shape.Concatenates [S512x512, S512x512] S512x1024 1
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x512_S512x512 : S512x512.ShapeCasts S512x512
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  slices_S512x1024_o0_0_S512x512 : S512x1024.Slices ![0, 0] S512x512
  slices_S512x1024_o0_512_S512x512 : S512x1024.Slices ![0, 512] S512x512
  dot_S512x512_S512x1536_S512x1536_1_0_0_1_n_n_wf : DotDims.WF S512x512 S512x1536 S512x1536 [1] [0] [0] [1] [] []
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S16384x1024 : Shape := ⟨2, ![16384, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S16384x1024, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.KernelFrame.lean ====
/-
  The frame of `Kernel`: every weakly fair execution of @main terminates without a fault and leaves the five argument
  arrays as launched — at any float instance.

  @main is eleven host operations (six row-slices of the three weights, two concatenations along the columns, three
  changes of format), then ONE pipelined region over 32 grid points. Point `t` is handed rows `512·t … 512·t + 511` of
  the input and of the previous state (windows 0 and 1, fetched at every point), the three re-laid weights whole
  (windows 2, 3, 4, fetched once, at the first point) and a 512 × 512 staging buffer for its rows of the result
  (window 5, written back at every point). The body loads the five input blocks whole, loads the result's buffer
  (a value it never uses), and stores ONE value over the whole of the result's buffer; so after the body the buffer
  holds that value of the five input blocks, whatever it held before.

  No host operation writes an argument array, no window of the region is an argument array other than the two
  batch arrays, which are inputs and never written back: hence the frame.
-/
import proofs.«106336_j70523363000807_2_alg».proof.Proof.Gen.Kernel.Launch
import proofs.«106336_j70523363000807_2_alg».proof.Proof.Gen.Kernel.Skeleton
import proofs.«106336_j70523363000807_2_alg».proof.Proof.Gen.Kernel.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents run through the eleven host
    operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region, entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write are the eleven intermediate values, never an argument. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10) :
    V m c b = m ((c : Thread nD τ).loc b) := by
  obtain ⟨h0, h1, h2, h3, h4, h5, h6, h7, h8, h9, h10⟩ := hb
  refine StableHlo.after_of_forall_not_mem (b := Proc.devRef .tc b) _ _ (List.forall_iff_forall_mem.mp ?_)
  simp only [hostOps0, List.Forall, StableHlo.unary_writes, StableHlo.binary_writes, StableHlo.nary_writes,
    Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9, StableHlo.devRef_ne_of_ne h10⟩

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)

/-! ## The windows' blocks -/

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its block index has not moved: the three weights, fetched at the first point only, stay put), for any proof
    data over the arrays `V` whose body leaves the inputs' blocks in place. One statement per input window. -/
theorem before_in0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)

/-! ## The frame claim's post from a frame run's -/

/-- From a run to the library's frame post — every array of the region at what the proof data says, every other
    unscoped buffer as the region found it — to the argument arrays unchanged: the two batch arrays are input windows
    (never written back), the three weights are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: each buffer whole -/

abbrev rB : Rect S512x512 := Rect.unit (s := S512x512) ![0, 0] S512x512.size inb_S512x512_S512x512_0_0
abbrev rA : Rect S512x1536 := Rect.unit (s := S512x1536) ![0, 0] S512x1536.size inb_S512x1536_S512x1536_0_0
abbrev rH : Rect S512x1024 := Rect.unit (s := S512x1024) ![0, 0] S512x1024.size inb_S512x1024_S512x1024_0_0

/-- What the body leaves in the result's staging buffer, from the five input blocks: its one store, of the body's one
    computed value, over the whole buffer. -/
def outBlock (x0 x1 : Vec F S512x512 .f32) (x2 : Vec F S512x1536 .bf16) (x3 : Vec F S512x1024 .bf16)
    (x4 : Vec F S512x512 .bf16) : Vec F S512x512 .f32 :=
  View.canon [⟨rB, k0_pay1 (View.ld x0 rB) (View.ld x1 rB) (View.ld x2 rA) (View.ld x3 rH) (View.ld x4 rB)⟩]

/-- The one store covers the buffer. -/
theorem cover_out (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 1000000 in
/-- The body on whole staging buffers, the five inputs' at contents `x0 … x4` and the result's at anything, runs to a
    continuation that holds the inputs' as they were and the result's at `outBlock` of the inputs: it is six whole
    loads and one whole store of the computed value. -/
theorem sound_kernel (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x1536 .bf16) (harg3 : arg3.IsWhole)
    (arg4 : Memref sig .tc .vmem S512x1024 .bf16) (harg4 : arg4.IsWhole)
    (arg5 : Memref sig .tc .vmem S512x512 .bf16) (harg5 : arg5.IsWhole)
    (arg6 : Memref sig .tc .vmem S512x512 .f32) (harg6 : arg6.IsWhole)
    (x0 x1 : Vec F S512x512 .f32) (x2 : Vec F S512x1536 .bf16) (x3 : Vec F S512x1024 .bf16)
    (x4 : Vec F S512x512 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The region's proof data -/

/-- On core `c`: the arrays as the region finds them; after the body at point `t` each input's buffer still at its
    block and the result's at `outBlock` of the five input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic grid point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what else the region
    holds passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the proof data computes and every other unscoped buffer as the region found
    it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frame

end
-- ==== Proof.KernelIdealFrame.lean ====
/-
  The frame of `KernelIdeal`: every weakly fair execution of @main terminates without a fault and leaves the five argument
  arrays as launched — at any float instance.

  @main is eleven host operations (six row-slices of the three weights, two concatenations along the columns, three
  changes of format), then ONE pipelined region over 32 grid points. Point `t` is handed rows `512·t … 512·t + 511` of
  the input and of the previous state (windows 0 and 1, fetched at every point), the three re-laid weights whole
  (windows 2, 3, 4, fetched once, at the first point) and a 512 × 512 staging buffer for its rows of the result
  (window 5, written back at every point). The body loads the five input blocks whole, loads the result's buffer
  (a value it never uses), and stores ONE value over the whole of the result's buffer; so after the body the buffer
  holds that value of the five input blocks, whatever it held before.

  No host operation writes an argument array, no window of the region is an argument array other than the two
  batch arrays, which are inputs and never written back: hence the frame.
-/
import proofs.«106336_j70523363000807_2_alg».proof.Proof.Gen.KernelIdeal.Launch
import proofs.«106336_j70523363000807_2_alg».proof.Proof.Gen.KernelIdeal.Skeleton
import proofs.«106336_j70523363000807_2_alg».proof.Proof.Gen.KernelIdeal.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents run through the eleven host
    operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region, entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write are the eleven intermediate values, never an argument. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10) :
    V m c b = m ((c : Thread nD τ).loc b) := by
  obtain ⟨h0, h1, h2, h3, h4, h5, h6, h7, h8, h9, h10⟩ := hb
  refine StableHlo.after_of_forall_not_mem (b := Proc.devRef .tc b) _ _ (List.forall_iff_forall_mem.mp ?_)
  simp only [hostOps0, List.Forall, StableHlo.unary_writes, StableHlo.binary_writes, StableHlo.nary_writes,
    Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9, StableHlo.devRef_ne_of_ne h10⟩

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)

/-! ## The windows' blocks -/

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its block index has not moved: the three weights, fetched at the first point only, stay put), for any proof
    data over the arrays `V` whose body leaves the inputs' blocks in place. One statement per input window. -/
theorem before_in0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)

/-! ## The frame claim's post from a frame run's -/

/-- From a run to the library's frame post — every array of the region at what the proof data says, every other
    unscoped buffer as the region found it — to the argument arrays unchanged: the two batch arrays are input windows
    (never written back), the three weights are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: each buffer whole -/

abbrev rB : Rect S512x512 := Rect.unit (s := S512x512) ![0, 0] S512x512.size inb_S512x512_S512x512_0_0
abbrev rA : Rect S512x1536 := Rect.unit (s := S512x1536) ![0, 0] S512x1536.size inb_S512x1536_S512x1536_0_0
abbrev rH : Rect S512x1024 := Rect.unit (s := S512x1024) ![0, 0] S512x1024.size inb_S512x1024_S512x1024_0_0

/-- What the body leaves in the result's staging buffer, from the five input blocks: its one store, of the body's one
    computed value, over the whole buffer. -/
def outBlock (x0 x1 : Vec F S512x512 .f32) (x2 : Vec F S512x1536 .bf16) (x3 : Vec F S512x1024 .bf16)
    (x4 : Vec F S512x512 .bf16) : Vec F S512x512 .f32 :=
  View.canon [⟨rB, k0_pay1 (View.ld x0 rB) (View.ld x1 rB) (View.ld x2 rA) (View.ld x3 rH) (View.ld x4 rB)⟩]

/-- The one store covers the buffer. -/
theorem cover_out (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 1000000 in
/-- The body on whole staging buffers, the five inputs' at contents `x0 … x4` and the result's at anything, runs to a
    continuation that holds the inputs' as they were and the result's at `outBlock` of the inputs: it is six whole
    loads and one whole store of the computed value. -/
theorem sound_kernel (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x1536 .bf16) (harg3 : arg3.IsWhole)
    (arg4 : Memref sig .tc .vmem S512x1024 .bf16) (harg4 : arg4.IsWhole)
    (arg5 : Memref sig .tc .vmem S512x512 .bf16) (harg5 : arg5.IsWhole)
    (arg6 : Memref sig .tc .vmem S512x512 .f32) (harg6 : arg6.IsWhole)
    (x0 x1 : Vec F S512x512 .f32) (x2 : Vec F S512x1536 .bf16) (x3 : Vec F S512x1024 .bf16)
    (x4 : Vec F S512x512 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The region's proof data -/

/-- On core `c`: the arrays as the region finds them; after the body at point `t` each input's buffer still at its
    block and the result's at `outBlock` of the five input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic grid point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what else the region
    holds passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the proof data computes and every other unscoped buffer as the region found
    it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frame

end
-- ==== Proof.GruBlock.lean ====
/-
  The body's one computed value, read at an index of the 512 × 512 block, on the extended reals.

  The body is handed a block `x0` of the input and `x1` of the previous state (512 rows each), and the three re-laid
  weights whole: `wa` (512 × 1536: the upper halves of the three weights side by side), `wb` (512 × 1024: the lower
  halves of the update and reset weights side by side) and `wh` (512 × 512: the lower half of the candidate's weight).
  It forms `x0 · wa` and `x1 · wb` and cuts them into column bands of 512; at row `p`, column `q`:

    z  = logistic ( (x0·wa)(p, q)        + (x1·wb)(p, q) )
    r  = logistic ( (x0·wa)(p, 512 + q)  + (x1·wb)(p, 512 + q) )
    c  = tanh     ( (x0·wa)(p, 1024 + q) + ((r ∘ x1)·wh)(p, q) )
    out(p, q) = z · x1(p, q) + (1 − z) · c

  At the ideal instance a change of float format is the identity and a matrix product into a zero accumulator is the
  plain sum of products, so each entry is the formula `blockVal` below.
-/
import proofs.«106336_j70523363000807_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The column bands of the re-laid weights -/

/-- Column `q` of the first band of the 1536 columns; -/
abbrev a0 (q : Fin 512) : Fin 1536 := ⟨q.val, by omega⟩
/-- of the second; -/
abbrev a1 (q : Fin 512) : Fin 1536 := ⟨512 + q.val, by omega⟩
/-- of the third. -/
abbrev a2 (q : Fin 512) : Fin 1536 := ⟨1024 + q.val, by omega⟩
/-- Column `q` of the first band of the 1024 columns; -/
abbrev b0 (q : Fin 512) : Fin 1024 := ⟨q.val, by omega⟩
/-- of the second. -/
abbrev b1 (q : Fin 512) : Fin 1024 := ⟨512 + q.val, by omega⟩

/-! ## The value as a formula -/

/-- The update gate at row `p`, column `q` of the block. -/
def bUpdate (x0 x1 : S512x512.Idx → EReal) (wa : S512x1536.Idx → EReal) (wb : S512x1024.Idx → EReal) (p q : Fin 512) : EReal :=
  Ideal.logistic ((∑ k : Fin 512, x0 (ix2 p k) * wa (ix2 k (a0 q))) + ∑ k : Fin 512, x1 (ix2 p k) * wb (ix2 k (b0 q)))

/-- The reset gate. -/
def bReset (x0 x1 : S512x512.Idx → EReal) (wa : S512x1536.Idx → EReal) (wb : S512x1024.Idx → EReal) (p q : Fin 512) : EReal :=
  Ideal.logistic ((∑ k : Fin 512, x0 (ix2 p k) * wa (ix2 k (a1 q))) + ∑ k : Fin 512, x1 (ix2 p k) * wb (ix2 k (b1 q)))

/-- The candidate state. -/
def bCand (x0 x1 : S512x512.Idx → EReal) (wa : S512x1536.Idx → EReal) (wb : S512x1024.Idx → EReal)
    (wh : S512x512.Idx → EReal) (p q : Fin 512) : EReal :=
  Ideal.tanh ((∑ k : Fin 512, x0 (ix2 p k) * wa (ix2 k (a2 q)))
    + ∑ k : Fin 512, (bReset x0 x1 wa wb p k * x1 (ix2 p k)) * wh (ix2 k q))

/-- The block's entry at row `p`, column `q`. -/
def blockVal (x0 x1 : S512x512.Idx → EReal) (wa : S512x1536.Idx → EReal) (wb : S512x1024.Idx → EReal)
    (wh : S512x512.Idx → EReal) (p q : Fin 512) : EReal :=
  bUpdate x0 x1 wa wb p q * x1 (ix2 p q)
    + (Ideal.ofBits .f32 0x3F800000#32 - bUpdate x0 x1 wa wb p q) * bCand x0 x1 wa wb wh p q

/-! ## The matrix products at an index -/

/-! ### The product of a 512 × 512 block with a 512 × 1536 block -/

theorem lhsA_row (i : S512x1536.Idx) (κ : dot_S512x512_S512x1536_S512x1536_1_0_0_1_n_n.contr.Idx) : (dot_S512x512_S512x1536_S512x1536_1_0_0_1_n_n.lhsIdx i κ 0).val = (i 0).val := by
  unfold DotDims.lhsIdx
  rw [dif_neg (show ¬(0 : Fin S512x512.rank) ∈ dot_S512x512_S512x1536_S512x1536_1_0_0_1_n_n.lhsBatch by decide),
    dif_pos (show (0 : Fin S512x512.rank) ∈ dot_S512x512_S512x1536_S512x1536_1_0_0_1_n_n.lhsNonContracting by decide)]
  rfl

theorem rhsA_col (i : S512x1536.Idx) (κ : dot_S512x512_S512x1536_S512x1536_1_0_0_1_n_n.contr.Idx) : (dot_S512x512_S512x1536_S512x1536_1_0_0_1_n_n.rhsIdx i κ 1).val = (i 1).val := by
  unfold DotDims.rhsIdx
  rw [dif_neg (show ¬(1 : Fin S512x1536.rank) ∈ dot_S512x512_S512x1536_S512x1536_1_0_0_1_n_n.rhsBatch by decide),
    dif_pos (show (1 : Fin S512x1536.rank) ∈ dot_S512x512_S512x1536_S512x1536_1_0_0_1_n_n.rhsNonContracting by decide)]
  rfl

/-- Entry (p, c) of the product into a zero accumulator is the plain sum over the 512 contracted indices. -/
theorem mmA_apply (l : FVec Ideal S512x512 .bf16) (r : FVec Ideal S512x1536 .bf16) (p : Fin 512) (c : Fin 1536) :
    matmul dot_S512x512_S512x1536_S512x1536_1_0_0_1_n_n none l r (constant S512x1536 .f32 0x00000000#32) (ix2 p c)
      = ∑ k : Fin 512, l (ix2 p k) * r (ix2 k c) := by
  simp only [matmul]
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p c) ((contrEquiv1 dot_S512x512_S512x1536_S512x1536_1_0_0_1_n_n 512 rfl rfl).symm k) = ix2 p k :=
    funext fun a => Fin.ext (by
      match a with
      | ⟨0, _⟩ => exact lhsA_row _ _
      | ⟨1, _⟩ => exact (dot_S512x512_S512x1536_S512x1536_1_0_0_1_n_n.lhsIdx_val_of_single rfl _ _).trans hk)
  have er : dot_S512x512_S512x1536_S512x1536_1_0_0_1_n_n.rhsIdx (ix2 p c) ((contrEquiv1 dot_S512x512_S512x1536_S512x1536_1_0_0_1_n_n 512 rfl rfl).symm k) = ix2 k c :=
    funext fun a => Fin.ext (by
      match a with
      | ⟨0, _⟩ => exact (dot_S512x512_S512x1536_S512x1536_1_0_0_1_n_n.rhsIdx_val_of_single rfl _ _).trans hk
      | ⟨1, _⟩ => exact rhsA_col _ _)
  rw [el, er]

/-! ### The product of a 512 × 512 block with a 512 × 1024 block -/

theorem lhsH_row (i : S512x1024.Idx) (κ : dot_S512x512_S512x1024_S512x1024_1_0_0_1_n_n.contr.Idx) : (dot_S512x512_S512x1024_S512x1024_1_0_0_1_n_n.lhsIdx i κ 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

theorem rhsH_col (i : S512x1024.Idx) (κ : dot_S512x512_S512x1024_S512x1024_1_0_0_1_n_n.contr.Idx) : (dot_S512x512_S512x1024_S512x1024_1_0_0_1_n_n.rhsIdx i κ 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- Entry (p, c) of the product into a zero accumulator is the plain sum over the 512 contracted indices. -/
theorem mmH_apply (l : FVec Ideal S512x512 .bf16) (r : FVec Ideal S512x1024 .bf16) (p : Fin 512) (c : Fin 1024) :
    matmul dot_S512x512_S512x1024_S512x1024_1_0_0_1_n_n none l r (constant S512x1024 .f32 0x00000000#32) (ix2 p c)
      = ∑ k : Fin 512, l (ix2 p k) * r (ix2 k c) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p c) ((contrEquiv1 dot_S512x512_S512x1024_S512x1024_1_0_0_1_n_n 512 rfl rfl).symm k) = ix2 p k :=
    funext fun a => Fin.ext (by
      match a with
      | ⟨0, _⟩ => exact lhsH_row _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 p c) ((contrEquiv1 dot_S512x512_S512x1024_S512x1024_1_0_0_1_n_n 512 rfl rfl).symm k) = ix2 k c :=
    funext fun a => Fin.ext (by
      match a with
      | ⟨0, _⟩ => exact (dot_S512x512_S512x1024_S512x1024_1_0_0_1_n_n.rhsIdx_val_of_single rfl _ _).trans hk
      | ⟨1, _⟩ => exact rhsH_col _ _)
  rw [el, er]

/-! ### The product of a 512 × 512 block with a 512 × 512 block -/

theorem lhsC_row (i : S512x512.Idx) (κ : dot_S512x512_S512x512_S512x512_1_0_0_1_n_n.contr.Idx) : (dot_S512x512_S512x512_S512x512_1_0_0_1_n_n.lhsIdx i κ 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

theorem rhsC_col (i : S512x512.Idx) (κ : dot_S512x512_S512x512_S512x512_1_0_0_1_n_n.contr.Idx) : (dot_S512x512_S512x512_S512x512_1_0_0_1_n_n.rhsIdx i κ 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- Entry (p, c) of the product into a zero accumulator is the plain sum over the 512 contracted indices. -/
theorem mmC_apply (l : FVec Ideal S512x512 .bf16) (r : FVec Ideal S512x512 .bf16) (p : Fin 512) (c : Fin 512) :
    matmul dot_S512x512_S512x512_S512x512_1_0_0_1_n_n none l r (constant S512x512 .f32 0x00000000#32) (ix2 p c)
      = ∑ k : Fin 512, l (ix2 p k) * r (ix2 k c) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p c) ((contrEquiv1 dot_S512x512_S512x512_S512x512_1_0_0_1_n_n 512 rfl rfl).symm k) = ix2 p k :=
    funext fun a => Fin.ext (by
      match a with
      | ⟨0, _⟩ => exact lhsC_row _ _
      | ⟨1, _⟩ => exact (dot_S512x512_S512x512_S512x512_1_0_0_1_n_n.lhsIdx_val_of_single rfl _ _).trans hk)
  have er : dot_S512x512_S512x512_S512x512_1_0_0_1_n_n.rhsIdx (ix2 p c) ((contrEquiv1 dot_S512x512_S512x512_S512x512_1_0_0_1_n_n 512 rfl rfl).symm k) = ix2 k c :=
    funext fun a => Fin.ext (by
      match a with
      | ⟨0, _⟩ => exact (dot_S512x512_S512x512_S512x512_1_0_0_1_n_n.rhsIdx_val_of_single rfl _ _).trans hk
      | ⟨1, _⟩ => exact rhsC_col _ _)
  rw [el, er]

/-! ## A column band of a product at an index -/

/-- Column `q` of the band that starts at column `o` of a 512 × 1536 array is its column `o + q`. -/
theorem bandA (o : Nat) (v : S512x1536.Idx → EReal) (hs : S512x1536.Slices ![0, o] S512x512) (p q : Fin 512)
    (c : Fin 1536) (hc : c.val = o + q.val) :
    extractStridedSlice S512x512 ![0, o] v hs (ix2 p q) = v (ix2 p c) :=
  extractStridedSlice_apply _ v hs (ix2 p q) (ix2 p c) (fun a => by
    match a with
    | ⟨0, _⟩ => exact (Nat.zero_add _).symm
    | ⟨1, _⟩ => exact hc)

/-- The same of a 512 × 1024 array. -/
theorem bandH (o : Nat) (v : S512x1024.Idx → EReal) (hs : S512x1024.Slices ![0, o] S512x512) (p q : Fin 512)
    (c : Fin 1024) (hc : c.val = o + q.val) :
    extractStridedSlice S512x512 ![0, o] v hs (ix2 p q) = v (ix2 p c) :=
  extractStridedSlice_apply _ v hs (ix2 p q) (ix2 p c) (fun a => by
    match a with
    | ⟨0, _⟩ => exact (Nat.zero_add _).symm
    | ⟨1, _⟩ => exact hc)

/-! ## The body's value at an index -/

theorem logistic_apply {s : Shape} {φ : FTy} (a : FVec Ideal s φ) (i : s.Idx) :
    Idealize.ShloMosaic.logistic a i = Ideal.logistic (a i) := rfl
theorem tanh_apply {s : Shape} {φ : FTy} (a : FVec Ideal s φ) (i : s.Idx) :
    Idealize.ShloMosaic.tanh a i = Ideal.tanh (a i) := rfl

/-- The body's computed value at row `p`, column `q` is the formula. -/
theorem pay_apply (x0 x1 : Vec Ideal S512x512 .f32) (wa : Vec Ideal S512x1536 .bf16) (wb : Vec Ideal S512x1024 .bf16)
    (wh : Vec Ideal S512x512 .bf16) (p q : Fin 512) :
    k0_pay1 (F := Ideal) x0 x1 wa wb wh (ix2 p q) = blockVal x0 x1 wa wb wh p q := by
  -- a band of `x0 · wa`, and of `x1 · wb`, at an index: the plain sum against that column of the weight
  have hA : ∀ (o : Nat) (hs : S512x1536.Slices ![0, o] S512x512) (q' : Fin 512) (c : Fin 1536) (hc : c.val = o + q'.val),
      extractStridedSlice S512x512 ![0, o]
          (matmul (F := Ideal) dot_S512x512_S512x1536_S512x1536_1_0_0_1_n_n none (truncf .bf16 x0 bitsLt_bf16_f32) wa
            (constant S512x1536 .f32 0x00000000#32)) hs (ix2 p q')
        = ∑ k : Fin 512, x0 (ix2 p k) * wa (ix2 k c) := fun o hs q' c hc => by
    rw [bandA o _ hs p q' c hc, mmA_apply]
    exact Finset.sum_congr rfl fun k _ => rfl
  have hH : ∀ (o : Nat) (hs : S512x1024.Slices ![0, o] S512x512) (q' : Fin 512) (c : Fin 1024) (hc : c.val = o + q'.val),
      extractStridedSlice S512x512 ![0, o]
          (matmul (F := Ideal) dot_S512x512_S512x1024_S512x1024_1_0_0_1_n_n none (truncf .bf16 x1 bitsLt_bf16_f32) wb
            (constant S512x1024 .f32 0x00000000#32)) hs (ix2 p q')
        = ∑ k : Fin 512, x1 (ix2 p k) * wb (ix2 k c) := fun o hs q' c hc => by
    rw [bandH o _ hs p q' c hc, mmH_apply]
    exact Finset.sum_congr rfl fun k _ => rfl
  unfold k0_pay1
  simp only [shapeCast_self]
  simp only [addf_apply, mulf_apply, subf_apply, logistic_apply, tanh_apply, broadcast_apply]
  rw [hA 0 _ q (a0 q) (Nat.zero_add _).symm, hH 0 _ q (b0 q) (Nat.zero_add _).symm, hA 1024 _ q (a2 q) rfl,
    mmC_apply]
  -- the gated state's row, entry by entry: the reset gate times the state
  have hr : ∀ k : Fin 512,
      (truncf .bf16 (mulf (logistic (addf
          (extractStridedSlice S512x512 ![0, 512]
            (matmul (F := Ideal) dot_S512x512_S512x1536_S512x1536_1_0_0_1_n_n none (truncf .bf16 x0 bitsLt_bf16_f32) wa
              (constant S512x1536 .f32 0x00000000#32)) slices_S512x1536_o0_512_S512x512)
          (extractStridedSlice S512x512 ![0, 512]
            (matmul (F := Ideal) dot_S512x512_S512x1024_S512x1024_1_0_0_1_n_n none (truncf .bf16 x1 bitsLt_bf16_f32) wb
              (constant S512x1024 .f32 0x00000000#32)) slices_S512x1024_o0_512_S512x512))) x1) bitsLt_bf16_f32 :
        FVec Ideal S512x512 .bf16) (ix2 p k)
        = bReset x0 x1 wa wb p k * x1 (ix2 p k) := fun k => by
    show Ideal.logistic (_ + _) * x1 (ix2 p k) = _
    rw [hA 512 _ k (a1 k) rfl, hH 512 _ k (b1 k) rfl]
    rfl
  simp only [hr]
  rfl

end Cert.KernelIdeal.Block

end
-- ==== Proof.GruSpec.lean ====
/-
  The gated recurrent cell as ONE function of its five argument arrays, index by index, on the extended reals.

  With `x` the step's input and `h` the previous state (both 16384 × 512) and three weights of 1024 rows
  (the first 512 rows meet `x`, the last 512 meet `h` or the gated `h`):

    pre W (p, q)   = Σ_k x(p,k) · W(k,q)  +  Σ_k h(p,k) · W(512+k,q)
    update (p, q)  = logistic (pre Wz (p, q))
    reset  (p, k)  = logistic (pre Wr (p, k))
    cand   (p, q)  = tanh ( Σ_k x(p,k) · Wh(k,q)  +  Σ_k (reset(p,k) · h(p,k)) · Wh(512+k,q) )
    G (p, q)       = update(p,q) · h(p,q) + (1 − update(p,q)) · cand(p,q)

  Every sum runs over the 512 indices of one half of a weight: a contraction over all 1024 rows of a weight is the sum
  of its two halves (`sum_halves`), which uses only that addition of extended reals is commutative and associative.
-/
import Idealize.ShloMosaic.PureOps.Ideal
import Idealize.ShloMosaic.Lib.ValueIdx

noncomputable section

namespace Cert.Gru

open Idealize.ShloMosaic Idealize.ShloMosaic.ValueIdx

/-- The batch arrays: 16384 rows of 512. -/
abbrev SB : Shape := ⟨2, ![16384, 512]⟩
/-- A weight: 1024 rows of 512. -/
abbrev SW : Shape := ⟨2, ![1024, 512]⟩

/-- Row `k` of a weight's upper half (the rows that meet the input). -/
abbrev lo (k : Fin 512) : Fin 1024 := ⟨k.val, by omega⟩
/-- Row `k` of a weight's lower half (the rows that meet the state). -/
abbrev hi (k : Fin 512) : Fin 1024 := ⟨512 + k.val, by omega⟩

/-- A gate's pre-activation at row `p`, column `q`: the input's row against the weight's upper half plus the state's row
    against its lower half. -/
def pre (x h : SB.Idx → EReal) (W : SW.Idx → EReal) (p : Fin 16384) (q : Fin 512) : EReal :=
  (∑ k : Fin 512, x (ix2 p k) * W (ix2 (lo k) q)) + ∑ k : Fin 512, h (ix2 p k) * W (ix2 (hi k) q)

/-- The update gate. -/
def update (x h : SB.Idx → EReal) (Wz : SW.Idx → EReal) (p : Fin 16384) (q : Fin 512) : EReal :=
  Ideal.logistic (pre x h Wz p q)

/-- The reset gate. -/
def reset (x h : SB.Idx → EReal) (Wr : SW.Idx → EReal) (p : Fin 16384) (k : Fin 512) : EReal :=
  Ideal.logistic (pre x h Wr p k)

/-- The candidate state: the state's row enters gated by the reset gate. -/
def cand (x h : SB.Idx → EReal) (Wr Wh : SW.Idx → EReal) (p : Fin 16384) (q : Fin 512) : EReal :=
  Ideal.tanh ((∑ k : Fin 512, x (ix2 p k) * Wh (ix2 (lo k) q))
    + ∑ k : Fin 512, (reset x h Wr p k * h (ix2 p k)) * Wh (ix2 (hi k) q))

/-- The new state. The literal is the f32 word of one, the same word in both programs. -/
def G (x h : SB.Idx → EReal) (Wz Wr Wh : SW.Idx → EReal) : SB.Idx → EReal := fun j =>
  update x h Wz (j 0) (j 1) * h (ix2 (j 0) (j 1))
    + (Ideal.ofBits .f32 0x3F800000#32 - update x h Wz (j 0) (j 1)) * cand x h Wr Wh (j 0) (j 1)

/-- A sum over the 1024 rows of a weight is the sum over its upper half plus the sum over its lower half. -/
theorem sum_halves (f : Fin 1024 → EReal) :
    ∑ k : Fin 1024, f k = (∑ k : Fin 512, f (lo k)) + ∑ k : Fin 512, f (hi k) := by
  have e := Fin.sum_univ_add (a := 512) (b := 512) (f : Fin (512 + 512) → EReal)
  exact e

end Cert.Gru

end
-- ==== Proof.GruBlockIsSpec.lean ====
/-
  The block's entry is the specification's entry.

  Let the block `x0` be row-block of the input `x` and `x1` of the state `h` — row `p` of the block is row `P` of the
  array —, let `wa` be the upper halves of the three weights side by side (columns `q`, `512 + q`, `1024 + q` of `wa`
  are column `q` of the update, reset and candidate weights' first 512 rows), `wb` the lower halves of the update and
  reset weights side by side, and `wh` the lower half of the candidate's weight. Then the block's entry at (p, q),
  as the body computes it, is the gated recurrent cell's entry at (P, q): the two are the same expression once each
  block entry is replaced by the array entry it is.
-/
import proofs.«106336_j70523363000807_2_alg».proof.Proof.GruBlock
import proofs.«106336_j70523363000807_2_alg».proof.Proof.GruSpec

noncomputable section

namespace Cert.KernelIdeal.Block

open Cert.KernelIdeal Cert.Gru Idealize.ShloMosaic Idealize.ShloMosaic.ValueIdx

theorem blockVal_eq_G (x h : SB.Idx → EReal) (Wz Wr Wh : SW.Idx → EReal)
    (x0 x1 : S512x512.Idx → EReal) (wa : S512x1536.Idx → EReal) (wb : S512x1024.Idx → EReal)
    (wh : S512x512.Idx → EReal) (P : Fin 16384) (p q : Fin 512)
    (hx0 : ∀ k : Fin 512, x0 (ix2 p k) = x (ix2 P k)) (hx1 : ∀ k : Fin 512, x1 (ix2 p k) = h (ix2 P k))
    (hwa0 : ∀ k q' : Fin 512, wa (ix2 k (a0 q')) = Wz (ix2 (lo k) q'))
    (hwa1 : ∀ k q' : Fin 512, wa (ix2 k (a1 q')) = Wr (ix2 (lo k) q'))
    (hwa2 : ∀ k q' : Fin 512, wa (ix2 k (a2 q')) = Wh (ix2 (lo k) q'))
    (hwb0 : ∀ k q' : Fin 512, wb (ix2 k (b0 q')) = Wz (ix2 (hi k) q'))
    (hwb1 : ∀ k q' : Fin 512, wb (ix2 k (b1 q')) = Wr (ix2 (hi k) q'))
    (hwh : ∀ k q' : Fin 512, wh (ix2 k q') = Wh (ix2 (hi k) q')) :
    blockVal x0 x1 wa wb wh p q = G x h Wz Wr Wh (ix2 P q) := by
  unfold blockVal bCand bReset bUpdate G cand reset update pre
  simp only [hx0, hx1, hwa0, hwa1, hwa2, hwb0, hwb1, hwh]

end Cert.KernelIdeal.Block

end
-- ==== Proof.LibNaryThree.lean ====
/-
  A host operation of exactly THREE operands, given as a literal family of references: what its result buffer holds.

  The library's general statement for an operation over a family `xs` of `n` operands hands its function the family
  `fun k => (contents of xs k)`, under a binder: at a literal family `![x, a, b]` the reference `![x, a, b] k` is then
  no literal, and the contents of the three operands cannot be rewritten further. Stated instead with each operand's
  contents at ITS OWN reference — the family `Fin.cons (F x) (Fin.cons (F a) (Fin.cons (F b) _))` — the rewriting of
  results goes on through the operands; the two families are equal entry by entry.
  (The library has this for a family of four; a concatenation of three arrays needs it for three.)
-/
import Idealize.ShloMosaic.Lib.StableHlo.Run

noncomputable section

namespace Cert.LibNaryThree

open Idealize.ShloMosaic Idealize.ShloMosaic.StableHlo

variable {τ : Topo} {sig : RefSig} {Val : EltTy → Type}

/-- The result of a three-operand operation, at its result buffer: its function of the three operands' contents, each
    read at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

/-- What one buffer holds after a line of host operations, computed: each operation's result at its own result buffer
    is its function's value, at any other buffer what was there before; a three-operand operation by `nary3_result`. -/
macro "after_results3" : tactic =>
  `(tactic| (simp only [after_cons, after_nil]
             repeat (first
               | rw [nullary_result] | rw [unary_result] | rw [binary_result] | rw [ternary_result]
               | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

end Cert.LibNaryThree

end
-- ==== Proof.KernelIdealValue.lean ====
/-
  What the idealized kernel's result array holds after the run: the gated recurrent cell `Cert.Gru.G` of the five
  argument arrays.

  Three steps. (1) The three weight buffers the region stages were written by the host operations: the first is the
  three weights' upper halves (rows 0 … 511) side by side, the second the update and reset weights' lower halves
  (rows 512 … 1023) side by side, the third the candidate weight's lower half; a change of format is the identity
  here. (2) Grid point `t` is handed rows `512·t … 512·t + 511` of the input and of the state, and the weight buffers
  whole; so what it writes back — the body's value of those blocks — is rows `512·t … 512·t + 511` of `G`.
  (3) Row `r` of the result lies in the block of point `r / 512`, so the 32 blocks cover the result and the array is `G`.
-/
import proofs.«106336_j70523363000807_2_alg».proof.Proof.KernelIdealFrame
import proofs.«106336_j70523363000807_2_alg».proof.Proof.GruBlockIsSpec
import proofs.«106336_j70523363000807_2_alg».proof.Proof.LibNaryThree
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frame Cert.KernelIdeal.Block Cert.Gru Cert.LibNaryThree
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The five argument arrays on core `c`, as launched. -/
abbrev argX (c : Dev nD) : SB.Idx → EReal := m ((c : Thread nD τ).loc main_arg0)
abbrev argH (c : Dev nD) : SB.Idx → EReal := m ((c : Thread nD τ).loc main_arg1)
abbrev argWz (c : Dev nD) : SW.Idx → EReal := m ((c : Thread nD τ).loc main_arg2)
abbrev argWr (c : Dev nD) : SW.Idx → EReal := m ((c : Thread nD τ).loc main_arg3)
abbrev argWh (c : Dev nD) : SW.Idx → EReal := m ((c : Thread nD τ).loc main_arg4)

/-! ## The layout operations of the host prefix, read at an index -/

/-- The upper half of a weight: its rows 0 … 511. -/
theorem upper_rows (W : S1024x512.Idx → EReal) (k q : Fin 512) :
    extractStridedSlice S512x512 ![0, 0] W slices_S1024x512_S512x512_0_0 (ix2 k q) = W (ix2 (lo k) q) :=
  extractStridedSlice_apply _ W _ (ix2 k q) (ix2 (lo k) q) (fun a => by
    match a with
    | ⟨0, _⟩ => exact (Nat.zero_add _).symm
    | ⟨1, _⟩ => exact (Nat.zero_add _).symm)

/-- The lower half of a weight: its rows 512 … 1023. -/
theorem lower_rows (W : S1024x512.Idx → EReal) (k q : Fin 512) :
    extractStridedSlice S512x512 ![512, 0] W slices_S1024x512_S512x512_512_0 (ix2 k q) = W (ix2 (hi k) q) :=
  extractStridedSlice_apply _ W _ (ix2 k q) (ix2 (hi k) q) (fun a => by
    match a with
    | ⟨0, _⟩ => rfl
    | ⟨1, _⟩ => exact (Nat.zero_add _).symm)

/-- Three 512-column arrays side by side: column `q` of the first band is the first array's column `q`; -/
theorem three_band0 (A B C : S512x512.Idx → EReal) (k q : Fin 512) :
    concatenate S512x1536 1 [⟨S512x512, A⟩, ⟨S512x512, B⟩, ⟨S512x512, C⟩]
      concatenates_S512x512_S512x512_S512x512_S512x1536_d1 (ix2 k (a0 q)) = A (ix2 k q) :=
  concatenate_apply_piece (1 : Fin S512x1536.rank) [⟨S512x512, A⟩, ⟨S512x512, B⟩, ⟨S512x512, C⟩] _ (ix2 k (a0 q))
    0 (by show 0 < 3; omega) S512x512 A rfl rfl 0 rfl (ix2 k q)
    (fun b hb => by
      match b, hb with
      | ⟨0, _⟩, _ => rfl
      | ⟨1, _⟩, hb => exact absurd rfl hb)
    (by show 0 + q.val = q.val; omega)

/-- of the second band, the second array's; -/
theorem three_band1 (A B C : S512x512.Idx → EReal) (k q : Fin 512) :
    concatenate S512x1536 1 [⟨S512x512, A⟩, ⟨S512x512, B⟩, ⟨S512x512, C⟩]
      concatenates_S512x512_S512x512_S512x512_S512x1536_d1 (ix2 k (a1 q)) = B (ix2 k q) :=
  concatenate_apply_piece (1 : Fin S512x1536.rank) [⟨S512x512, A⟩, ⟨S512x512, B⟩, ⟨S512x512, C⟩] _ (ix2 k (a1 q))
    1 (by show 1 < 3; omega) S512x512 B rfl rfl 512 rfl (ix2 k q)
    (fun b hb => by
      match b, hb with
      | ⟨0, _⟩, _ => rfl
      | ⟨1, _⟩, hb => exact absurd rfl hb)
    (by show 512 + q.val = 512 + q.val; rfl)

/-- of the third band, the third array's. -/
theorem three_band2 (A B C : S512x512.Idx → EReal) (k q : Fin 512) :
    concatenate S512x1536 1 [⟨S512x512, A⟩, ⟨S512x512, B⟩, ⟨S512x512, C⟩]
      concatenates_S512x512_S512x512_S512x512_S512x1536_d1 (ix2 k (a2 q)) = C (ix2 k q) :=
  concatenate_apply_piece (1 : Fin S512x1536.rank) [⟨S512x512, A⟩, ⟨S512x512, B⟩, ⟨S512x512, C⟩] _ (ix2 k (a2 q))
    2 (by show 2 < 3; omega) S512x512 C rfl rfl 1024 rfl (ix2 k q)
    (fun b hb => by
      match b, hb with
      | ⟨0, _⟩, _ => rfl
      | ⟨1, _⟩, hb => exact absurd rfl hb)
    (by show 1024 + q.val = 1024 + q.val; rfl)

/-- Two 512-column arrays side by side: the first band; -/
theorem two_band0 (A B : S512x512.Idx → EReal) (k q : Fin 512) :
    concatenate S512x1024 1 [⟨S512x512, A⟩, ⟨S512x512, B⟩] concatenates_S512x512_S512x512_S512x1024_d1 (ix2 k (b0 q))
      = A (ix2 k q) :=
  concatenate_pair_apply_left _ A B _ (ix2 k (b0 q)) rfl (ix2 k q)
    (fun b => by match b with | ⟨0, _⟩ => rfl | ⟨1, _⟩ => rfl)

/-- the second band. -/
theorem two_band1 (A B : S512x512.Idx → EReal) (k q : Fin 512) :
    concatenate S512x1024 1 [⟨S512x512, A⟩, ⟨S512x512, B⟩] concatenates_S512x512_S512x512_S512x1024_d1 (ix2 k (b1 q))
      = B (ix2 k q) :=
  concatenate_pair_apply_right _ A B _ (ix2 k (b1 q)) rfl rfl (ix2 k q)
    (fun b hb => by
      match b, hb with
      | ⟨0, _⟩, _ => rfl
      | ⟨1, _⟩, hb => exact absurd rfl hb)
    (by show q.val + 512 = 512 + q.val; omega)

/-! ## The weight buffers as the region finds them -/

/-- The first weight buffer: the three upper halves side by side. -/
theorem V_wa (c : Dev nD) : (V m c main_v7 : S512x1536.Idx → EReal) =
    truncf (F := Ideal) .bf16 (concatenate S512x1536 1
      [⟨S512x512, extractStridedSlice S512x512 ![0, 0] (m ((c : Thread nD τ).loc main_arg2)) slices_S1024x512_S512x512_0_0⟩,
       ⟨S512x512, extractStridedSlice S512x512 ![0, 0] (m ((c : Thread nD τ).loc main_arg3)) slices_S1024x512_S512x512_0_0⟩,
       ⟨S512x512, extractStridedSlice S512x512 ![0, 0] (m ((c : Thread nD τ).loc main_arg4)) slices_S1024x512_S512x512_0_0⟩]
      concatenates_S512x512_S512x512_S512x512_S512x1536_d1) bitsLt_bf16_f32 := by
  dsimp only [V, hostOps0]
  after_results3
  rfl

/-- The second: the update and reset weights' lower halves side by side. -/
theorem V_wb (c : Dev nD) : (V m c main_v9 : S512x1024.Idx → EReal) =
    truncf (F := Ideal) .bf16 (concatenate S512x1024 1
      [⟨S512x512, extractStridedSlice S512x512 ![512, 0] (m ((c : Thread nD τ).loc main_arg2)) slices_S1024x512_S512x512_512_0⟩,
       ⟨S512x512, extractStridedSlice S512x512 ![512, 0] (m ((c : Thread nD τ).loc main_arg3)) slices_S1024x512_S512x512_512_0⟩]
      concatenates_S512x512_S512x512_S512x1024_d1) bitsLt_bf16_f32 := by
  dsimp only [V, hostOps0]
  after_results3

/-- The third: the candidate weight's lower half. -/
theorem V_wh (c : Dev nD) : (V m c main_v10 : S512x512.Idx → EReal) =
    truncf (F := Ideal) .bf16
      (extractStridedSlice S512x512 ![512, 0] (m ((c : Thread nD τ).loc main_arg4)) slices_S1024x512_S512x512_512_0)
      bitsLt_bf16_f32 := by
  dsimp only [V, hostOps0]
  after_results3

theorem wa_band0 (c : Dev nD) (k q : Fin 512) :
    (V m c main_v7 : S512x1536.Idx → EReal) (ix2 k (a0 q)) = argWz m c (ix2 (lo k) q) := by
  rw [V_wa]; exact (three_band0 _ _ _ k q).trans (upper_rows _ k q)
theorem wa_band1 (c : Dev nD) (k q : Fin 512) :
    (V m c main_v7 : S512x1536.Idx → EReal) (ix2 k (a1 q)) = argWr m c (ix2 (lo k) q) := by
  rw [V_wa]; exact (three_band1 _ _ _ k q).trans (upper_rows _ k q)
theorem wa_band2 (c : Dev nD) (k q : Fin 512) :
    (V m c main_v7 : S512x1536.Idx → EReal) (ix2 k (a2 q)) = argWh m c (ix2 (lo k) q) := by
  rw [V_wa]; exact (three_band2 _ _ _ k q).trans (upper_rows _ k q)
theorem wb_band0 (c : Dev nD) (k q : Fin 512) :
    (V m c main_v9 : S512x1024.Idx → EReal) (ix2 k (b0 q)) = argWz m c (ix2 (hi k) q) := by
  rw [V_wb]; exact (two_band0 _ _ k q).trans (lower_rows _ k q)
theorem wb_band1 (c : Dev nD) (k q : Fin 512) :
    (V m c main_v9 : S512x1024.Idx → EReal) (ix2 k (b1 q)) = argWr m c (ix2 (hi k) q) := by
  rw [V_wb]; exact (two_band1 _ _ k q).trans (lower_rows _ k q)
theorem wh_entry (c : Dev nD) (k q : Fin 512) :
    (V m c main_v10 : S512x512.Idx → EReal) (ix2 k q) = argWh m c (ix2 (hi k) q) := by
  rw [V_wh]; exact lower_rows _ k q

/-! ## The blocks a grid point is handed -/

/-- The printed index maps, decided over the 32 grid points: the two batch arrays' and the result's blocks advance one
    row-block per point, the weight buffers' block never moves. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of grid point `t`'s block is row `512·t + p` of the array. -/
def rowOf (t : Fin cfg0.N) (p : Fin 512) : Fin 16384 :=
  ⟨t.val * 512 + p.val, by have h := t.isLt; have h32 : cfg0.N = 32 := N_0; omega⟩

/-- The input's block at point `t`: rows `512·t …` of the input. -/
theorem blk_x (c : Dev nD) (t : Fin cfg0.N) (p k : Fin 512) :
    iblk m c 0 t (ix2 p k) = argX m c (ix2 (rowOf t p) k) := by
  show V m c main_arg0 (((cfg0.win 0).blk t).view.emb (ix2 p k)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 512 + 1 * k.val = k.val; omega

/-- The state's block at point `t`: the same rows of the state. -/
theorem blk_h (c : Dev nD) (t : Fin cfg0.N) (p k : Fin 512) :
    iblk m c 1 t (ix2 p k) = argH m c (ix2 (rowOf t p) k) := by
  show V m c main_arg1 (((cfg0.win 1).blk t).view.emb (ix2 p k)) = _
  rw [V_main_arg1]
  refine congrArg (m ((c : Thread nD τ).loc main_arg1)) ?_
  obtain ⟨-, -, e0, e1, -⟩ := idx_facts t
  funext a; apply Fin.ext
  match a with
  | ⟨0, _⟩ => show win0_1.index t (0 : Fin 2) * 512 + 1 * p.val = t.val * 512 + p.val; omega
  | ⟨1, _⟩ => show win0_1.index t (1 : Fin 2) * 512 + 1 * k.val = k.val; omega

/-- A weight buffer's block at any point is the whole buffer. -/
theorem blk_wa (c : Dev nD) (t : Fin cfg0.N) (y : S512x1536.Idx) :
    iblk m c 2 t y = (V m c main_v7 : S512x1536.Idx → EReal) y := by
  show V m c main_v7 (((cfg0.win 2).blk t).view.emb y) = _
  refine congrArg (V m c main_v7 : S512x1536.Idx → EReal) ?_
  obtain ⟨-, -, -, -, e0, e1, -⟩ := idx_facts t
  funext a; apply Fin.ext
  match a with
  | ⟨0, _⟩ => show win0_2.index t (0 : Fin 2) * 512 + 1 * (y 0).val = (y 0).val; omega
  | ⟨1, _⟩ => show win0_2.index t (1 : Fin 2) * 1536 + 1 * (y 1).val = (y 1).val; omega

theorem blk_wb (c : Dev nD) (t : Fin cfg0.N) (y : S512x1024.Idx) :
    iblk m c 3 t y = (V m c main_v9 : S512x1024.Idx → EReal) y := by
  show V m c main_v9 (((cfg0.win 3).blk t).view.emb y) = _
  refine congrArg (V m c main_v9 : S512x1024.Idx → EReal) ?_
  obtain ⟨-, -, -, -, -, -, e0, e1, -⟩ := idx_facts t
  funext a; apply Fin.ext
  match a with
  | ⟨0, _⟩ => show win0_3.index t (0 : Fin 2) * 512 + 1 * (y 0).val = (y 0).val; omega
  | ⟨1, _⟩ => show win0_3.index t (1 : Fin 2) * 1024 + 1 * (y 1).val = (y 1).val; omega

theorem blk_wh (c : Dev nD) (t : Fin cfg0.N) (y : S512x512.Idx) :
    iblk m c 4 t y = (V m c main_v10 : S512x512.Idx → EReal) y := by
  show V m c main_v10 (((cfg0.win 4).blk t).view.emb y) = _
  refine congrArg (V m c main_v10 : S512x512.Idx → EReal) ?_
  obtain ⟨-, -, -, -, -, -, -, -, e0, e1, -⟩ := idx_facts t
  funext a; apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

/-! ## What a grid point writes back -/

theorem hz : (![0, 0] : Fin 2 → Nat) = fun _ => 0 := funext fun a => by fin_cases a <;> rfl

/-- The specification of the argument arrays of core `c`. -/
abbrev Gc (c : Dev nD) : SB.Idx → EReal := G (argX m c) (argH m c) (argWz m c) (argWr m c) (argWh m c)

/-- Point `t` writes back rows `512·t … 512·t + 511` of the specification. -/
theorem flushed_eq (c : Dev nD) (t : Fin cfg0.N) :
    (dats m 0 c).flushed 5 t = ((cfg0.win 5).blk t).view.read (Elt Ideal) (Gc m c) := by
  show (cfg0.win 5).cut (grid0.coords t) ((dats m 0 c).after 5 t) = _
  rw [after5]
  unfold outBlock
  rw [View.canon_unit_zero hz]
  simp only [View.ld_unit_zero (S := S512x512) hz, View.ld_unit_zero (S := S512x1536) hz,
    View.ld_unit_zero (S := S512x1024) hz]
  funext y
  obtain ⟨p, q, rfl⟩ : ∃ (p q : Fin 512), y = ix2 p q := ⟨y 0, y 1, eq_ix2 y⟩
  refine (pay_apply (iblk m c 0 t) (iblk m c 1 t) (iblk m c 2 t) (iblk m c 3 t) (iblk m c 4 t) p q).trans ?_
  refine (blockVal_eq_G (argX m c) (argH m c) (argWz m c) (argWr m c) (argWh m c)
    (iblk m c 0 t) (iblk m c 1 t) (iblk m c 2 t) (iblk m c 3 t) (iblk m c 4 t) (rowOf t p) p q
    (fun k => blk_x m c t p k) (fun k => blk_h m c t p k)
    (fun k q' => (blk_wa m c t _).trans (wa_band0 m c k q'))
    (fun k q' => (blk_wa m c t _).trans (wa_band1 m c k q'))
    (fun k q' => (blk_wa m c t _).trans (wa_band2 m c k q'))
    (fun k q' => (blk_wb m c t _).trans (wb_band0 m c k q'))
    (fun k q' => (blk_wb m c t _).trans (wb_band1 m c k q'))
    (fun k q' => (blk_wh m c t _).trans (wh_entry m c k q'))).trans ?_
  show Gc m c (ix2 (rowOf t p) q) = Gc m c (((cfg0.win 5).blk t).view.emb (ix2 p q))
  refine congrArg (Gc m c) ?_
  obtain ⟨-, -, -, -, -, -, -, -, -, -, e0, e1⟩ := idx_facts t
  funext a; apply Fin.ext
  match a with
  | ⟨0, _⟩ => show t.val * 512 + p.val = win0_5.index t (0 : Fin 2) * 512 + 1 * p.val; omega
  | ⟨1, _⟩ => show q.val = win0_5.index t (1 : Fin 2) * 512 + 1 * q.val; omega

/-! ## The blocks cover the result -/

/-- An index of the result is in point `t`'s block iff each coordinate is in the block's range. -/
theorem mem_blk (t : Fin cfg0.N) (i : S16384x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v11).slice (win0_5.rect t)).set ↔ _
  rw [View.set_slice_whole, Rect.mem_set_unit]
  exact Iff.rfl

/-- Row `r` lies in the block of point `r / 512`. -/
theorem cover (i : S16384x512.Idx) :
    ∃ t : Fin cfg0.N, (cfg0.win 5).flush t = true ∧ i ∈ ((cfg0.win 5).blk t).view.set := by
  have hi0 : (i 0).val < 16384 := (i 0).isLt
  have hi1 : (i 1).val < 512 := (i 1).isLt
  have h32 : cfg0.N = 32 := N_0
  obtain ⟨t, ht⟩ : ∃ t : Fin cfg0.N, t.val = (i 0).val / 512 := ⟨⟨(i 0).val / 512, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 512 ≤ (i 1).val ∧ (i 1).val < win0_5.index t (1 : Fin 2) * 512 + 512
    omega

/-! ## The result array, and the run -/

/-- After the 32 points the result array is the specification. -/
theorem final (c : Dev nD) : (dats m 0 c).arrAt 5 cfg0.N = Gc m c :=
  (dats m 0 c).arrAt_eq_of_cover 5 (Gc m c) (fun t _ => flushed_eq m c t) cover

/-- Every weakly fair execution of the idealized kernel's @main terminates with the result array at the
    specification of the argument arrays, and the argument arrays unchanged. -/
theorem run : θ_run defs (onTc (τ := τ) (main (F := Ideal))) ⟨m, fun _ => 0, ρ⟩ fun r => ∀ c : Dev nD,
      r.2.mem ((c.tc : Thread nD τ).loc main_v11) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.RefValue.lean ====
/-
  The reference program computes the gated recurrent cell of the specification.

  The reference joins the input and the state along the feature axis (16384 × 1024) and contracts the joined array
  with each weight over all 1024 rows. Column k < 512 of the joined array is the input's column k and column 512 + k
  is the state's column k (for the candidate, the state's column gated by the reset gate), so a contraction over the
  1024 rows is the sum of the input against the weight's upper half and the state against its lower half: that is
  the specification's pre-activation. The reference spells the logistic function as c / (c + exp (−s)) with c the
  f32 word of one, which is the extended reals' logistic function.
-/
import proofs.«106336_j70523363000807_2_alg».proof.Proof.Gen.ReferenceIdeal.Read
import proofs.«106336_j70523363000807_2_alg».proof.Proof.GruSpec
import Idealize.ShloMosaic.Lib.IdealHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Gru
open Idealize.ShloMosaic Idealize.ShloMosaic.ValueIdx

/-- A batch array: 16384 rows of 512 extended reals. -/
abbrev Batch : Type := (⟨S16384x512, .f32⟩ : BufTy).Contents (Elt Ideal)
/-- A weight: 1024 rows of 512 extended reals. -/
abbrev Weight : Type := (⟨S1024x512, .f32⟩ : BufTy).Contents (Elt Ideal)

/-! ## Two arrays joined along the feature axis, read at a column of either half -/

/-- Column k < 512 of the join is the first array's column k. -/
theorem join_lo (a b : Batch) (p : Fin 16384) (k : Fin 512) :
    concatenate S16384x1024 1 [⟨S16384x512, a⟩, ⟨S16384x512, b⟩] concatenates_S16384x512_S16384x512_S16384x1024_d1
      (ix2 p (lo k)) = a (ix2 p k) :=
  concatenate_pair_apply_left _ a b _ (ix2 p (lo k)) rfl (ix2 p k)
    (fun c => by match c with | ⟨0, _⟩ => rfl | ⟨1, _⟩ => rfl)

/-- Column 512 + k of the join is the second array's column k. -/
theorem join_hi (a b : Batch) (p : Fin 16384) (k : Fin 512) :
    concatenate S16384x1024 1 [⟨S16384x512, a⟩, ⟨S16384x512, b⟩] concatenates_S16384x512_S16384x512_S16384x1024_d1
      (ix2 p (hi k)) = b (ix2 p k) :=
  concatenate_pair_apply_right _ a b _ (ix2 p (hi k)) rfl rfl (ix2 p k)
    (fun c hc => by
      match c, hc with
      | ⟨0, _⟩, _ => rfl
      | ⟨1, _⟩, hc => exact absurd rfl hc)
    (by show k.val + 512 = 512 + k.val; omega)

/-! ## The contraction's index functions at an index given by its coordinates -/

theorem lidx_v1 (p : Fin 16384) (q : Fin 512) (k : Fin 1024) : lidx_main_v1 (ix2 p q) k = ix2 p k :=
  funext fun a => Fin.ext (by match a with | ⟨0, _⟩ => rfl | ⟨1, _⟩ => rfl)
theorem ridx_v1 (p : Fin 16384) (q : Fin 512) (k : Fin 1024) : ridx_main_v1 (ix2 p q) k = ix2 k q :=
  funext fun a => Fin.ext (by match a with | ⟨0, _⟩ => rfl | ⟨1, _⟩ => rfl)
theorem lidx_v8 (p : Fin 16384) (q : Fin 512) (k : Fin 1024) : lidx_main_v8 (ix2 p q) k = ix2 p k :=
  funext fun a => Fin.ext (by match a with | ⟨0, _⟩ => rfl | ⟨1, _⟩ => rfl)
theorem ridx_v8 (p : Fin 16384) (q : Fin 512) (k : Fin 1024) : ridx_main_v8 (ix2 p q) k = ix2 k q :=
  funext fun a => Fin.ext (by match a with | ⟨0, _⟩ => rfl | ⟨1, _⟩ => rfl)
theorem lidx_v17 (p : Fin 16384) (q : Fin 512) (k : Fin 1024) : lidx_main_v17 (ix2 p q) k = ix2 p k :=
  funext fun a => Fin.ext (by match a with | ⟨0, _⟩ => rfl | ⟨1, _⟩ => rfl)
theorem ridx_v17 (p : Fin 16384) (q : Fin 512) (k : Fin 1024) : ridx_main_v17 (ix2 p q) k = ix2 k q :=
  funext fun a => Fin.ext (by match a with | ⟨0, _⟩ => rfl | ⟨1, _⟩ => rfl)

/-! ## The logistic function as the reference spells it -/

/-- c / (c + exp (−s)) with c the f32 word of one is the logistic function. -/
theorem logistic_spelling (s : EReal) :
    Ideal.div (Ideal.ofBits .f32 0x3F800000#32) (Ideal.ofBits .f32 0x3F800000#32 + Ideal.exp (-s))
      = Ideal.logistic s := by
  rw [Ideal.ofBits_one_f32]; rfl

/-! ## The two gates -/

/-- The first contraction is the update gate's pre-activation. -/
theorem dot_update (x h : Batch) (Wz : Weight) (p : Fin 16384) (q : Fin 512) :
    val_main_v1 (F := Ideal) x h Wz (ix2 p q) = pre x h Wz p q := by
  rw [val_main_v1_apply, sum_halves]
  unfold pre val_main_v0
  congr 1 <;> refine Finset.sum_congr rfl fun k _ => ?_
  · rw [lidx_v1, ridx_v1, join_lo]
  · rw [lidx_v1, ridx_v1, join_hi]

/-- The second contraction is the reset gate's pre-activation. -/
theorem dot_reset (x h : Batch) (Wr : Weight) (p : Fin 16384) (q : Fin 512) :
    val_main_v8 (F := Ideal) x h Wr (ix2 p q) = pre x h Wr p q := by
  rw [val_main_v8_apply, sum_halves]
  unfold pre val_main_v0
  congr 1 <;> refine Finset.sum_congr rfl fun k _ => ?_
  · rw [lidx_v8, ridx_v8, join_lo]
  · rw [lidx_v8, ridx_v8, join_hi]

/-- The reference's update gate. -/
theorem gate_update (x h : Batch) (Wz : Weight) (p : Fin 16384) (q : Fin 512) :
    val_main_v7 (F := Ideal) x h Wz (ix2 p q) = update x h Wz p q := by
  rw [val_main_v7_apply, val_main_v6_apply, val_main_cst_0_apply, val_main_v5_apply, val_main_v4_apply,
    val_main_cst_apply, val_main_v3_apply, val_main_v2_apply, dot_update]
  simp only [Ideal.hostDivf_def, Ideal.addf_def, Ideal.hostUnary_exp_def, Ideal.hostNegf_def, Ideal.negf_def,
    Ideal.ofBits_def]
  exact logistic_spelling _

/-- The reference's reset gate. -/
theorem gate_reset (x h : Batch) (Wr : Weight) (p : Fin 16384) (q : Fin 512) :
    val_main_v14 (F := Ideal) x h Wr (ix2 p q) = reset x h Wr p q := by
  rw [val_main_v14_apply, val_main_v13_apply, val_main_cst_2_apply, val_main_v12_apply, val_main_v11_apply,
    val_main_cst_1_apply, val_main_v10_apply, val_main_v9_apply, dot_reset]
  simp only [Ideal.hostDivf_def, Ideal.addf_def, Ideal.hostUnary_exp_def, Ideal.hostNegf_def, Ideal.negf_def,
    Ideal.ofBits_def]
  exact logistic_spelling _

/-! ## The candidate state -/

/-- The third contraction: the input against the weight's upper half plus the gated state against its lower half. -/
theorem dot_cand (x h : Batch) (Wr Wh : Weight) (p : Fin 16384) (q : Fin 512) :
    val_main_v17 (F := Ideal) x h Wr Wh (ix2 p q)
      = (∑ k : Fin 512, x (ix2 p k) * Wh (ix2 (lo k) q))
        + ∑ k : Fin 512, (reset x h Wr p k * h (ix2 p k)) * Wh (ix2 (hi k) q) := by
  rw [val_main_v17_apply, sum_halves]
  unfold val_main_v16
  congr 1 <;> refine Finset.sum_congr rfl fun k _ => ?_
  · rw [lidx_v17, ridx_v17, join_lo]
  · rw [lidx_v17, ridx_v17, join_hi, val_main_v15_apply, gate_reset]
    rfl

/-! ## The reference is the specification -/

theorem reference_eq [Cert.ReferenceIdeal.Facts]
    (x h : (⟨Cert.ReferenceIdeal.S16384x512, .f32⟩ : BufTy).Contents (Elt Ideal))
    (Wz Wr Wh : (⟨Cert.ReferenceIdeal.S1024x512, .f32⟩ : BufTy).Contents (Elt Ideal)) :
    Cert.ReferenceIdeal.Read.val_main_v23 (F := Ideal) x h Wz Wr Wh = Cert.Gru.G x h Wz Wr Wh := by
  funext j
  obtain ⟨p, q, rfl⟩ : ∃ (p : Fin 16384) (q : Fin 512), j = ix2 p q := ⟨j 0, j 1, eq_ix2 j⟩
  rw [val_main_v23_apply, val_main_v19_apply, val_main_v22_apply, val_main_v21_apply, val_main_v20_apply,
    val_main_cst_3_apply, val_main_v18_apply, gate_update, dot_cand]
  simp only [Ideal.addf_def, Ideal.subf_def, Ideal.mulf_def, Ideal.hostUnary_tanh_def, Ideal.ofBits_def]
  rfl

end Cert.ReferenceIdeal.RefValue

end
-- ==== Proof.lean ====
/-
  A gated recurrent cell computed by one fused kernel, against its plain reference: the two agree on the extended
  reals, and all three programs run and leave their arguments unchanged.

  With `x` the step's input and `h` the previous state (16384 × 512 each) and three weights `Wz`, `Wr`, `Wh` of 1024
  rows, the reference joins `[x, h]` along the feature axis and forms
      z = logistic ([x, h] · Wz),   r = logistic ([x, h] · Wr),   c = tanh ([x, r ∘ h] · Wh),   out = z ∘ h + (1 − z) ∘ c.
  The kernel never joins: it cuts each weight into its first 512 rows (which meet `x`) and its last 512 (which meet `h`
  or `r ∘ h`), lays the halves that meet the same operand side by side, and at each of 32 grid points multiplies a
  512-row block of `x` and of `h` into them. Since a contraction over the 1024 joined columns is the sum of the
  contraction over the first 512 and over the last 512 — addition of extended reals is commutative and associative,
  nothing else is used, so the finiteness of the inputs is never needed —, both programs compute the one function
  `Cert.Gru.G` of the five arguments, index by index. The kernel's changes of float format are the identity on the
  extended reals, its matrix products into a zero accumulator are plain sums, and its logistic function is the
  reference's `1 / (1 + exp (−s))`.

  The parts: `GruSpec` states `G` and the splitting of a sum; `KernelFrame` and `KernelIdealFrame` run the kernel
  (the host operations, then the region point by point) and give its frame at either float instance; `GruBlock` reads
  the body's value at an index of a block, `GruBlockIsSpec` identifies it with `G`, `KernelIdealValue` assembles the
  32 blocks into the result array; `RefValue` reads the reference's term as `G`. The idealization rewrote no operation,
  so that it preserves the kernel is trivially true.
-/
import proofs.«106336_j70523363000807_2_alg».proof.Defs
import proofs.«106336_j70523363000807_2_alg».proof.Proof.Gen.Kernel
import proofs.«106336_j70523363000807_2_alg».proof.Proof.Gen.KernelIdeal
import proofs.«106336_j70523363000807_2_alg».proof.Proof.Gen.ReferenceIdeal
import proofs.«106336_j70523363000807_2_alg».proof.Proof.Gen.Pre_finite_inputs
import proofs.«106336_j70523363000807_2_alg».proof.Proof.Gen.ReferenceIdeal.Run
import proofs.«106336_j70523363000807_2_alg».proof.Proof.Gen.ReferenceIdeal.Read
import proofs.«106336_j70523363000807_2_alg».proof.Proof.KernelFrame
import proofs.«106336_j70523363000807_2_alg».proof.Proof.KernelIdealFrame
import proofs.«106336_j70523363000807_2_alg».proof.Proof.KernelIdealValue
import proofs.«106336_j70523363000807_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments, the idealized kernel ends with its result at `G` of its arguments
    and the reference with its result at `G` of its own: the same array. -/
theorem algebraic : Cert.algebraic_KernelIdeal_ReferenceIdeal := by
  intro m ρ m' ρ' _ hagree
  refine ⟨fun c => Cert.KernelIdeal.KValue.Gc m c, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
